-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S131072x64 .f32) (main_arg1 : FVec F S512x64 .f32) (main_arg2 : FVec F S512 .f32) (main_arg3 : FVec F S1x512 .f32) (main_arg4 : FVec F S1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Kernel.lean ====
abbrev S131072x64 : Shape := ⟨2, ![131072, 64]⟩
abbrev S512x64 : Shape := ⟨2, ![512, 64]⟩
abbrev S512 : Shape := ⟨1, ![512]⟩
abbrev S1x512 : Shape := ⟨2, ![1, 512]⟩
abbrev S1 : Shape := ⟨1, ![1]⟩
abbrev S64x512 : Shape := ⟨2, ![64, 512]⟩
abbrev S_ : Shape := ⟨0, ![]⟩
abbrev S1x1 : Shape := ⟨2, ![1, 1]⟩
abbrev S131072x1 : Shape := ⟨2, ![131072, 1]⟩
abbrev S2048x64 : Shape := ⟨2, ![2048, 64]⟩
abbrev S2048x1 : Shape := ⟨2, ![2048, 1]⟩
abbrev S2048 : Shape := ⟨1, ![2048]⟩
abbrev S2048x512 : Shape := ⟨2, ![2048, 512]⟩

abbrev nBuf : Space → Nat
  | .hbm => 15
  | .vmem => 9
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S64x512, .f32⟩
  | .hbm, ⟨6, _⟩ => ⟨S64x512, .bf16⟩
  | .hbm, ⟨7, _⟩ => ⟨S512x64, .f32⟩
  | .hbm, ⟨8, _⟩ => ⟨S_, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S1x1, .f32⟩
  | .hbm, ⟨14, _⟩ => ⟨S131072x1, .f32⟩
  | .local _ .vmem, ⟨0, _⟩ => ⟨S2048x64, .f32⟩
  | .local _ .vmem, ⟨1, _⟩ => ⟨S2048x64, .f32⟩
  | .local _ .vmem, ⟨2, _⟩ => ⟨S64x512, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S2048x1, .f32⟩
  | .local _ .vmem, ⟨8, _⟩ => ⟨S2048x1, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x64_S64x512_1_0 : S512x64.Transposes [1, 0] S64x512
  bitsLt_bf16_f32 : FTy.bits .bf16 < FTy.bits .f32
  reducesTo_S512x64_S512_d1 : S512x64.ReducesTo [1] S512
  h_S_ : 0 < S_.numel
  bcast_S512_S1x512_1 : S512.BroadcastsInDim S1x512 (![1] : Fin 1 → Fin S1x512.rank)
  shapeCasts_S1_S1x1 : S1.ShapeCasts S1x1
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  reduces_S2048x512_S2048 : S2048x512.Reduces [1] S2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .bf16 = 32 ∨ (Rect.block (s := S64x512) S64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S131072x1.size a
  hwx0_6 : ∀ i : grid0.Coords, EltTy.bits .f32 = 32 ∨ (Rect.block (s := S131072x1) S2048x1.size (cc0_transform_6 i) (hinb0_6 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S512 : Shape := ⟨1, ![512]⟩
abbrev S1x512 : Shape := ⟨2, ![1, 512]⟩
abbrev S1 : Shape := ⟨1, ![1]⟩
abbrev S_ : Shape := ⟨0, ![]⟩
abbrev S131072 : Shape := ⟨1, ![131072]⟩
abbrev S131072x1 : Shape := ⟨2, ![131072, 1]⟩
abbrev S131072x512 : Shape := ⟨2, ![131072, 512]⟩
abbrev S64x512 : Shape := ⟨2, ![64, 512]⟩
abbrev S512x1 : Shape := ⟨2, ![512, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S131072x64, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S64x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S131072x512, .f32⟩
  | .hbm, ⟨26, _⟩ => ⟨S1x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S131072x512, .f32⟩
  | .hbm, ⟨32, _⟩ => ⟨S512x1, .f32⟩
  | .hbm, ⟨33, _⟩ => ⟨S131072x1, .f32⟩
  | .hbm, ⟨34, _⟩ => ⟨S1x1, .f32⟩
  | .hbm, ⟨35, _⟩ => ⟨S131072x1, .f32⟩
  | .hbm, ⟨36, _⟩ => ⟨S131072x1, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  transposes_S1x512_S512x1_1_0 : S1x512.Transposes [1, 0] S512x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  dot_S131072x64_S64x512_S131072x512_1_0_0_1_n_n_wf : DotDims.WF S131072x64 S64x512 S131072x512 [1] [0] [0] [1] [] []
  dot_S131072x512_S512x1_S131072x1_1_0_0_1_n_n_wf : DotDims.WF S131072x512 S512x1 S131072x1 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf

class Facts : Prop extends Facts₀ where

variable [Facts]
-- ==== Proof.Spec.lean ====
/-
  A radial-basis network read as ONE function of its five argument arrays, on the extended reals.

  For a batch row `p` of `x` and a centre `j`, the squared distance is taken by the expansion
  ‖x_p‖² + ‖c_j‖² − 2⟨x_p, c_j⟩ and clamped below at zero (`sqdist`); the basis function is
  exp(−(sqdist · σ_j²)); the output at row `p` is the basis functions combined with the weights `W`, plus the
  bias (`out`). The factor of the cross term is the float word of 2.0, the same word wherever it occurs, and is
  never evaluated.

  One way of computing the exponent scales the clamped squared distance by σ_j²; another takes the distance
  √sqdist, scales it by σ_j and squares the product. The two agree on every extended real: the square root of a
  non-negative extended real, squared, is that number (also at +∞, whose root is +∞), and regrouping a product of
  four factors uses only commutativity and associativity (`scaled_sq`). No finiteness of any entry is needed.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The float word of 2.0 as an extended real: the factor of the cross term ⟨x_p, c_j⟩. -/
abbrev two : EReal := Ideal.ofBits .f32 0x40000000#32

/-- The squared distance from row `p` of `x` to centre `j`: ‖x_p‖² + ‖c_j‖² − 2⟨x_p, c_j⟩, clamped below at 0. -/
def sqdist (x : (⟨2, ![131072, 64]⟩ : Shape).Idx → EReal) (c : (⟨2, ![512, 64]⟩ : Shape).Idx → EReal)
    (p : Fin 131072) (j : Fin 512) : EReal :=
  max (((∑ k : Fin 64, x (ix2 p k) * x (ix2 p k)) + ∑ k : Fin 64, c (ix2 j k) * c (ix2 j k))
    - two * ∑ k : Fin 64, x (ix2 p k) * c (ix2 j k)) 0

/-- The network's output: at row `p` (the one column carries nothing), Σ_j exp(−(sqdist p j · σ_j²)) · W_j + b. -/
def out (x : (⟨2, ![131072, 64]⟩ : Shape).Idx → EReal) (c : (⟨2, ![512, 64]⟩ : Shape).Idx → EReal)
    (σ : (⟨1, ![512]⟩ : Shape).Idx → EReal) (W : (⟨2, ![1, 512]⟩ : Shape).Idx → EReal)
    (b : (⟨1, ![1]⟩ : Shape).Idx → EReal) : (⟨2, ![131072, 1]⟩ : Shape).Idx → EReal := fun i =>
  (∑ j : Fin 512, Ideal.exp (-(sqdist x c (i 0) j * (σ (ix1 j) * σ (ix1 j)))) * W (ix2 (0 : Fin 1) j))
    + b (ix1 (0 : Fin 1))

/-- A clamped value is non-negative. -/
theorem sqdist_nonneg (x : (⟨2, ![131072, 64]⟩ : Shape).Idx → EReal) (c : (⟨2, ![512, 64]⟩ : Shape).Idx → EReal)
    (p : Fin 131072) (j : Fin 512) : 0 ≤ sqdist x c p j := le_max_right _ _

/-- The square root of a non-negative extended real, squared, is that number: for a real by the real law, and at
    +∞ because the root of +∞ is +∞. -/
theorem sqrt_mul_self {s : EReal} (h : 0 ≤ s) : Ideal.sqrt s * Ideal.sqrt s = s := by
  induction s using EReal.rec with
  | bot => exact absurd h (not_le.mpr EReal.bot_lt_zero)
  | top => rfl
  | coe r =>
    have hr : 0 ≤ r := by exact_mod_cast h
    rw [Ideal.sqrt_coe, if_neg (not_lt.mpr hr), ← EReal.coe_mul, Real.mul_self_sqrt hr]

/-- Scaling the root by σ and squaring is scaling the number by σ². -/
theorem scaled_sq {s : EReal} (h : 0 ≤ s) (σ : EReal) :
    (Ideal.sqrt s * σ) * (Ideal.sqrt s * σ) = s * (σ * σ) := by
  rw [mul_mul_mul_comm, sqrt_mul_self h]

end Cert.Rbf

end
-- ==== Proof.LibKeepdims.lean ====
/-
  Reading a matrix row by row, at indices given by coordinates.

  Three facts every `keepdims` row statistic needs: a vector `[a]` viewed as a column `[a, 1]` holds, at `(p, 0)`,
  the vector's entry `p`; a sum over the columns of an `[m, n]` array, read at row `p`, is the sum over `k : Fin n` of
  the entries `(p, k)`; and a maximum over the columns, read at row `p`, is the fold of `max` over those entries.
  The last two hold on the extended reals, where a reduction has no order of evaluation left in it.
-/
import Idealize.ShloMosaic.Lib.Pipeline.Value
import Idealize.ShloMosaic.Lib.ValueIdx
import Idealize.ShloMosaic.PureOps.Ideal.Laws

namespace Cert.MemAttn.Layout

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- Row `p` with the column coordinate `k` put back is the index `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A sum over the columns of an `[m, n]` array of extended reals, read at row `p`: the sum of that row's entries. -/
theorem multiReduction_add_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ) (hacc : acc = FKind.add.neutral φ hφ)
    (p : Fin m) :
    multiReduction .add [1] ⟨1, ![m]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the columns of an `[m, n]` array of extended reals, read at row `p`: the fold of `max`, from the
    accumulator's value, over that row's entries. -/
theorem multiReduction_maximumf_row {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction .maximumf [1] ⟨1, ![m]⟩ src acc h hφ hacc (ix1 p)
      = (Finset.univ : Finset (Fin n)).fold max (Ideal.ofBits φ acc) (fun k => src (ix2 p k)) :=
  (Ideal.multiReduction_maximumf_single src acc h hφ hacc (ix1 p)).trans
    (congrArg (fun f => (Finset.univ : Finset (Fin n)).fold max (Ideal.ofBits φ acc) f)
      (funext fun k => congrArg src (lift_row h p k)))

end Cert.MemAttn.Layout
-- ==== Proof.LibColumnBroadcast.lean ====
/-
  A column broadcast along its rows, read at an index given by coordinates: an `[a, 1]` array broadcast to `[a, b]`
  holds, at `(p, c)`, the column's entry `p` — the value does not depend on the column coordinate `c`. The
  companion of the row form (`[1, b]` to `[a, b]`, which does not depend on the row coordinate).
-/
import Idealize.ShloMosaic.Lib.Pipeline.Value
import Idealize.ShloMosaic.Lib.ValueIdx

namespace Cert.WeightUpdate.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.WeightUpdate.Layout
-- ==== Proof.LibRowBroadcast.lean ====
/-
  A general reading at an index: a one-row array `[1, n]` repeated along the rows to `[a, n]` holds, at `(p, c)`, the
  row's entry `c` — a bias row added to every row of a matrix. Independent of any program.
-/
import Idealize.ShloMosaic.Lib.ValueIdx
import Idealize.ShloMosaic.Lib.Pipeline.Value

noncomputable section

namespace Cert.RowBroadcast

open Idealize.ShloMosaic Idealize.ShloMosaic.ValueIdx

variable {α : Type} {a n : ℕ}

/-- A row `[1, n]` broadcast to `[a, n]` holds, at `(p, c)`, the row's entry `(0, c)`. -/
theorem row_broadcast_apply (v : (⟨2, ![1, n]⟩ : Shape).Idx → α)
    (h : (⟨2, ![1, n]⟩ : Shape).Broadcasts ⟨2, ![a, n]⟩) (p : Fin a) (c : Fin n) :
    broadcastTo ⟨2, ![a, n]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if n = 1 then 0 else c.val
    split
    · have := c.isLt; omega
    · rfl

end Cert.RowBroadcast

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.Body.lean ====
/-
  What the kernel body stores for one block of 2048 rows, read at a row.

  The body squares the block's entries and sums each row (‖x_p‖²), multiplies the block by the transposed centres on
  the matrix unit into a zero accumulator (⟨x_p, c_j⟩, the narrower float format being no change on the extended
  reals), adds the row of centre norms, subtracts twice the cross term, clamps at zero, scales by the row of σ²,
  negates by subtracting from zero, exponentiates, multiplies by the row of weights, sums each row and adds the
  bias. At row `p` of the block that is
      Σ_j exp(−(max(‖x_p‖² + c2_j − 2·⟨x_p, ct_·j⟩, 0) · s2_j)) · w_j + b,
  a function of row `p` of the block and of the whole of the five resident operands.
-/
import proofs.«102594_j18116172055027_1_alg».proof.Proof.Gen.KernelIdeal.Skeleton
import proofs.«102594_j18116172055027_1_alg».proof.Proof.Spec
import proofs.«102594_j18116172055027_1_alg».proof.Proof.LibKeepdims
import proofs.«102594_j18116172055027_1_alg».proof.Proof.LibColumnBroadcast
import proofs.«102594_j18116172055027_1_alg».proof.Proof.LibRowBroadcast
import proofs.«102594_j18116172055027_1_alg».proof.Proof.LibRowColDot
import Idealize.ShloMosaic.Lib.Pipeline.Value
import Idealize.ShloMosaic.Lib.ValueIdx
import Idealize.ShloMosaic.PureOps.Ideal.Laws

noncomputable section

namespace Cert.Rbf.Body

open Idealize.ShloMosaic Idealize.ShloMosaic.ValueIdx Cert.KernelIdeal Cert.KernelIdeal.Gen

/-- The product keeps the left operand's row coordinate. -/
theorem dot_lhs0 (j : S2048x512.Idx) (q : dot_S2048x64_S64x512_S2048x512_1_0_0_1_n_n.contr.Idx) :
    (dot_S2048x64_S64x512_S2048x512_1_0_0_1_n_n.lhsIdx j q 0).val = (j 0).val := by
  unfold DotDims.lhsIdx
  rw [dif_neg (show ¬(0 : Fin S2048x64.rank) ∈ dot_S2048x64_S64x512_S2048x512_1_0_0_1_n_n.lhsBatch by decide),
    dif_pos (show (0 : Fin S2048x64.rank) ∈ dot_S2048x64_S64x512_S2048x512_1_0_0_1_n_n.lhsNonContracting by decide)]
  rfl

/-- The product keeps the right operand's column coordinate. -/
theorem dot_rhs1 (j : S2048x512.Idx) (q : dot_S2048x64_S64x512_S2048x512_1_0_0_1_n_n.contr.Idx) :
    (dot_S2048x64_S64x512_S2048x512_1_0_0_1_n_n.rhsIdx j q 1).val = (j 1).val := by
  unfold DotDims.rhsIdx
  rw [dif_neg (show ¬(1 : Fin S64x512.rank) ∈ dot_S2048x64_S64x512_S2048x512_1_0_0_1_n_n.rhsBatch by decide),
    dif_pos (show (1 : Fin S64x512.rank) ∈ dot_S2048x64_S64x512_S2048x512_1_0_0_1_n_n.rhsNonContracting by decide)]
  rfl

/-- The block times the transposed centres, at row `p` and centre `q`: the inner product over the 64 features. -/
theorem cross_at (a : FVec Ideal S2048x64 .bf16) (ct : FVec Ideal S64x512 .bf16) (p : Fin 2048) (q : Fin 512) :
    matmul dot_S2048x64_S64x512_S2048x512_1_0_0_1_n_n none a ct (constant S2048x512 .f32 0x00000000#32) (ix2 p q)
      = ∑ k : Fin 64, a (ix2 p k) * ct (ix2 k q) :=
  Cert.RowColDot.matmul_rowcol dot_S2048x64_S64x512_S2048x512_1_0_0_1_n_n rfl rfl rfl rfl dot_lhs0 dot_rhs1 none a ct (ix2 p q)

/-- A sum over the columns of an `[m, n]` array from the zero word, read at row `p`: the sum of that row's entries. (The
    side conditions are typed as a printed reduction carries them.) -/
theorem rowsum_at {m n : ℕ} (src : FVec Ideal ⟨2, ![m, n]⟩ .f32)
    (h : (⟨2, ![m, n]⟩ : Shape).Reduces [1] (⟨1, ![m]⟩ : Shape)) (hφ : FTy.f32 = FTy.f32 ∨ FTy.f32 = FTy.bf16)
    (hacc : (0#32 : BitVec 32) = 0#32) (p : Fin m) :
    multiReduction .add [1] ⟨1, ![m]⟩ src 0#32 h hφ hacc (ix1 p) = ∑ k : Fin n, src (ix2 p k) :=
  Cert.MemAttn.Layout.multiReduction_add_row src 0#32 h hφ hacc p

/-- The exponential of a vector, read at an index. -/
theorem exp_at {s : Shape} {φ : FTy} (v : FVec Ideal s φ) (i : s.Idx) : exp v i = Ideal.exp (v i) := rfl

/-- The body's stored value at row `p` of the block. -/
theorem payload_at (x : Vec Ideal S2048x64 .f32) (ct : Vec Ideal S64x512 .bf16) (c2 s2 w : Vec Ideal S1x512 .f32)
    (b : Vec Ideal S1x1 .f32) (p : Fin 2048) (u : Fin 1) :
    k0_pay1 (F := Ideal) x ct c2 s2 w b (ix2 p u)
      = (∑ j : Fin 512, Ideal.exp (-(max (((∑ k : Fin 64, x (ix2 p k) * x (ix2 p k)) + c2 (ix2 (0 : Fin 1) j))
            - Cert.Rbf.two * ∑ k : Fin 64, x (ix2 p k) * ct (ix2 k j)) 0 * s2 (ix2 (0 : Fin 1) j)))
          * w (ix2 (0 : Fin 1) j))
        + b (ix2 (0 : Fin 1) u) := by
  unfold k0_pay1
  simp only [addf_apply, shapeCast_self, Cert.MemAttn.Layout.shapeCast_a_a1_apply, Cert.RowBroadcast.row_broadcast_apply]
  refine congrArg (· + _) ((rowsum_at _ _ _ _ p).trans (Finset.sum_congr rfl fun j _ => ?_))
  simp only [addf_apply, subf_apply, mulf_apply, maximumf_apply, exp_at, broadcast_apply, shapeCast_self, truncf_apply,
    Cert.MemAttn.Layout.shapeCast_a_a1_apply, Cert.WeightUpdate.Layout.broadcastTo_a1_ab_apply,
    Cert.RowBroadcast.row_broadcast_apply, cross_at, Ideal.ofBits_def, Ideal.ofBits_zero_f32, zero_sub]
  rw [rowsum_at (mulf x x) reduces_S2048x64_S2048 _ _ p]
  simp only [mulf_apply]

end Cert.Rbf.Body

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.Entry.lean ====
/-
  The arrays the kernel's region is launched on, read at an index.

  Before the region the host transposes the centres (and narrows their float format, no change on the extended
  reals), sums the squares of each centre's features from a zero initial value and lays the 512 sums out as one row,
  squares each σ_j and lays those out as one row, and views the one bias as a 1×1 array. So at the region's entry:
  the transposed centres hold, at (k, j), the centres' entry (j, k); the row of norms holds ‖c_j‖² at (0, j); the
  row of scales holds σ_j² at (0, j); the 1×1 array holds the bias. The batch `x` and the weight row are passed as
  they were launched.
-/
import proofs.«102594_j18116172055027_1_alg».proof.Proof.Gen.KernelIdeal.Frame
import proofs.«102594_j18116172055027_1_alg».proof.Proof.LibKeepdims
import proofs.«102594_j18116172055027_1_alg».proof.Proof.LibHostRowReads
import proofs.«102594_j18116172055027_1_alg».proof.Proof.LibHostRowMax
import Idealize.ShloMosaic.Lib.StableHlo.Run
import Idealize.ShloMosaic.Lib.Pipeline.Value
import Idealize.ShloMosaic.Lib.ValueIdx
import Idealize.ShloMosaic.PureOps.Ideal.Laws

noncomputable section

namespace Cert.Rbf.Entry

open Idealize.ShloMosaic Idealize.ShloMosaic.TcCoe Idealize.ShloMosaic.ValueIdx Idealize.ShloMosaic.StableHlo
open Idealize.SL.Sem Cert.KernelIdeal Cert.KernelIdeal.Gen

variable (m : (ℓ : Loc nD τ sig) → Buf (Elt Ideal) ℓ)

/-! ## The five argument arrays as launched, as arrays of extended reals -/

/-- The batch `x`. -/
abbrev argX (c : Dev nD) : S131072x64.Idx → EReal := m ((c : Thread nD τ).loc main_arg0)
/-- The centres. -/
abbrev argC (c : Dev nD) : S512x64.Idx → EReal := m ((c : Thread nD τ).loc main_arg1)
/-- The widths σ. -/
abbrev argS (c : Dev nD) : S512.Idx → EReal := m ((c : Thread nD τ).loc main_arg2)
/-- The weight row. -/
abbrev argW (c : Dev nD) : S1x512.Idx → EReal := m ((c : Thread nD τ).loc main_arg3)
/-- The bias. -/
abbrev argB (c : Dev nD) : S1.Idx → EReal := m ((c : Thread nD τ).loc main_arg4)

/-! ## The four arrays the host writes before the region -/

/-- The transposed centres the region is launched on. -/
abbrev entCt (c : Dev nD) : S64x512.Idx → EReal := V m c main_v1
/-- The row of centre norms. -/
abbrev entC2 (c : Dev nD) : S1x512.Idx → EReal := V m c main_v4
/-- The row of squared widths. -/
abbrev entS2 (c : Dev nD) : S1x512.Idx → EReal := V m c main_v6
/-- The bias as a 1×1 array. -/
abbrev entB (c : Dev nD) : S1x1.Idx → EReal := V m c main_v7

/-- The transposed centres at (k, j): the centres' entry (j, k). -/
theorem ct_at (c : Dev nD) (k : Fin 64) (j : Fin 512) : entCt m c (ix2 k j) = argC m c (ix2 j k) := by
  have e : entCt m c
      = truncf (F := Ideal) .bf16 (transpose S64x512 [1, 0] (argC m c) transposes_S512x64_S64x512_1_0) bitsLt_bf16_f32 := by
    dsimp only [entCt, argC, V, hostOps0]; after_results
  rw [e, truncf_apply]
  exact transpose_apply [1, 0] _ transposes_S512x64_S64x512_1_0 (ix2 k j) (ix2 j k)
    (fun b => match b with | ⟨0, _⟩ => rfl | ⟨1, _⟩ => rfl)

/-- The row of centre norms at (0, j): the sum of the squares of centre j's features. -/
theorem c2_at (c : Dev nD) (u : Fin 1) (j : Fin 512) :
    entC2 m c (ix2 u j) = ∑ k : Fin 64, argC m c (ix2 j k) * argC m c (ix2 j k) := by
  have e : entC2 m c
      = broadcastInDim S1x512 ![1] bcast_S512_S1x512_1
          (Host.reduceAdd (F := Ideal) (mulf (argC m c) (argC m c)) (constant (F := Ideal) S_ .f32 0x00000000#32)
            reducesTo_S512x64_S512_d1 h_S_) := by
    dsimp only [entC2, argC, V, hostOps0]; after_results
  rw [e, Cert.HostRowMax.broadcastInDim_row_apply,
    Cert.HostRowReads.hostReduceAdd_row _ _ reducesTo_S512x64_S512_d1 (by decide) h_S_ j]
  simp only [constant_apply, Ideal.ofBits_zero_f32, zero_add, mulf_apply]

/-- The row of scales at (0, j): σ_j squared. -/
theorem s2_at (c : Dev nD) (u : Fin 1) (j : Fin 512) :
    entS2 m c (ix2 u j) = argS m c (ix1 j) * argS m c (ix1 j) := by
  have e : entS2 m c
      = broadcastInDim S1x512 ![1] bcast_S512_S1x512_1 (mulf (F := Ideal) (φ := .f32) (argS m c) (argS m c)) := by
    dsimp only [entS2, argS, V, hostOps0]; after_results
  rw [e, Cert.HostRowMax.broadcastInDim_row_apply, mulf_apply]

/-- The 1×1 array holds the bias. -/
theorem b_at (c : Dev nD) (u u' : Fin 1) : entB m c (ix2 u u') = argB m c (ix1 (0 : Fin 1)) := by
  have e : entB m c = shapeCast S1x1 (argB m c) shapeCasts_S1_S1x1 := by
    dsimp only [entB, argB, V, hostOps0]; after_results; rfl
  obtain rfl : u = 0 := Subsingleton.elim _ _
  rw [e, Cert.MemAttn.Layout.shapeCast_a_a1_apply]

end Cert.Rbf.Entry

end
-- ==== Proof.Blocks.lean ====
/-
  From the blocks to the whole result array.

  The grid has 64 points. At point `t` the batch window holds rows 2048·t … 2048·t + 2047 of `x`, the five other input
  windows hold the whole of their (small) arrays at every point, and the output window is rows 2048·t … 2048·t + 2047
  of the one-column result. Row `p` of what the body stores is therefore the network's output at batch row
  2048·t + p — the body's stored value at a row (`Body.payload_at`) with each block entry read back as an entry of
  the argument arrays (`x_blk` … `b_blk`, through the host-written operands of `Entry`). The 64 output blocks
  cover the result array: batch row `r` lies in the block of point `r / 2048`. So after the run the result array is
  the specification `Cert.Rbf.out` of the five arguments.
-/
import proofs.«102594_j18116172055027_1_alg».proof.Proof.Gen.KernelIdeal.Value
import proofs.«102594_j18116172055027_1_alg».proof.Proof.Spec
import proofs.«102594_j18116172055027_1_alg».proof.Proof.Body
import proofs.«102594_j18116172055027_1_alg».proof.Proof.Entry
import Idealize.ShloMosaic.Lib.Pipeline.Value
import Idealize.ShloMosaic.Lib.ValueIdx
import Idealize.ShloMosaic.Lib.Tactic

noncomputable section

namespace Cert.Rbf.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.Rbf.Entry

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the batch window and the output window at block row `t`, the five
    resident windows at block (0, 0). Decided over the 64 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Batch row 2048·t + p: row `p` of the block of point `t`. -/
def row (t : Fin cfg0.N) (p : Fin 2048) : Fin 131072 :=
  ⟨2048 * t.val + p.val, by have ht : t.val < 64 := lt_of_lt_of_eq t.isLt N_0; have := p.isLt; omega⟩

/-! ## Each input window's block, read at coordinates -/

/-- The batch window's block at point `t` holds, at (p, k), the batch entry (2048·t + p, k). -/
theorem x_blk (c : Dev nD) (t : Fin cfg0.N) (p : Fin 2048) (k : Fin 64) :
    (iblk m c 0 t : Vec Ideal S2048x64 .f32) (ix2 p k) = argX m c (ix2 (row t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 64 + 1 * k.val = k.val; rw [e1]; omega

/-- The transposed-centres window holds, at (k, j), the centres' entry (j, k), at every point. -/
theorem ct_blk (c : Dev nD) (t : Fin cfg0.N) (k : Fin 64) (j : Fin 512) :
    (iblk m c 1 t : Vec Ideal S64x512 .bf16) (ix2 k j) = argC m c (ix2 j k) := by
  obtain ⟨-, -, e0, e1, -⟩ := idx_facts t
  unfold iblk
  rw [View.read_apply]
  show entCt m c _ = _
  refine Eq.trans (congrArg _ (funext fun a => Fin.ext ?_)) (Cert.Rbf.Entry.ct_at m c k j)
  match a with
  | ⟨0, _⟩ => show win0_1.index t (0 : Fin 2) * 64 + 1 * k.val = k.val; rw [e0]; omega
  | ⟨1, _⟩ => show win0_1.index t (1 : Fin 2) * 512 + 1 * j.val = j.val; rw [e1]; omega

/-- The window of centre norms holds ‖c_j‖² at (0, j), at every point. -/
theorem c2_blk (c : Dev nD) (t : Fin cfg0.N) (u : Fin 1) (j : Fin 512) :
    (iblk m c 2 t : Vec Ideal S1x512 .f32) (ix2 u j)
      = ∑ k : Fin 64, argC m c (ix2 j k) * argC m c (ix2 j k) := by
  obtain ⟨-, -, -, -, e0, e1, -⟩ := idx_facts t
  unfold iblk
  rw [View.read_apply]
  show entC2 m c _ = _
  refine Eq.trans (congrArg _ (funext fun a => Fin.ext ?_)) (Cert.Rbf.Entry.c2_at m c u j)
  match a with
  | ⟨0, _⟩ => show win0_2.index t (0 : Fin 2) * 1 + 1 * u.val = u.val; rw [e0]; omega
  | ⟨1, _⟩ => show win0_2.index t (1 : Fin 2) * 512 + 1 * j.val = j.val; rw [e1]; omega

/-- The window of scales holds σ_j² at (0, j), at every point. -/
theorem s2_blk (c : Dev nD) (t : Fin cfg0.N) (u : Fin 1) (j : Fin 512) :
    (iblk m c 3 t : Vec Ideal S1x512 .f32) (ix2 u j)
      = argS m c (ix1 j) * argS m c (ix1 j) := by
  obtain ⟨-, -, -, -, -, -, e0, e1, -⟩ := idx_facts t
  unfold iblk
  rw [View.read_apply]
  show entS2 m c _ = _
  refine Eq.trans (congrArg _ (funext fun a => Fin.ext ?_)) (Cert.Rbf.Entry.s2_at m c u j)
  match a with
  | ⟨0, _⟩ => show win0_3.index t (0 : Fin 2) * 1 + 1 * u.val = u.val; rw [e0]; omega
  | ⟨1, _⟩ => show win0_3.index t (1 : Fin 2) * 512 + 1 * j.val = j.val; rw [e1]; omega

/-- The weight window holds the weight row, at every point. -/
theorem w_blk (c : Dev nD) (t : Fin cfg0.N) (u : Fin 1) (j : Fin 512) :
    (iblk m c 4 t : Vec Ideal S1x512 .f32) (ix2 u j) = argW m c (ix2 u j) := by
  obtain ⟨-, -, -, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_4.index t (0 : Fin 2) * 1 + 1 * u.val = u.val; rw [e0]; omega
  | ⟨1, _⟩ => show win0_4.index t (1 : Fin 2) * 512 + 1 * j.val = j.val; rw [e1]; omega

/-- The bias window holds the bias, at every point. -/
theorem b_blk (c : Dev nD) (t : Fin cfg0.N) (u u' : Fin 1) :
    (iblk m c 5 t : Vec Ideal S1x1 .f32) (ix2 u u') = argB m c (ix1 (0 : Fin 1)) := by
  obtain ⟨-, -, -, -, -, -, -, -, -, -, e0, e1, -⟩ := idx_facts t
  unfold iblk
  rw [View.read_apply]
  show entB m c _ = _
  refine Eq.trans (congrArg _ (funext fun a => Fin.ext ?_)) (Cert.Rbf.Entry.b_at m c u u')
  match a with
  | ⟨0, _⟩ => show win0_5.index t (0 : Fin 2) * 1 + 1 * u.val = u.val; rw [e0]; omega
  | ⟨1, _⟩ => show win0_5.index t (1 : Fin 2) * 1 + 1 * u'.val = u'.val; rw [e1]; omega

/-! ## What a point writes back -/

/-- Row `p` of the output block of point `t` is batch row 2048·t + p of the result. -/
theorem out_emb (t : Fin cfg0.N) (p : Fin 2048) (u : Fin 1) :
    ((cfg0.win 6).blk t).view.emb (ix2 p u) = (ix2 (row t p) u : S131072x1.Idx) := by
  obtain ⟨-, -, -, -, -, -, -, -, -, -, -, -, e0, e1⟩ := idx_facts t
  refine funext fun a => Fin.ext ?_
  match a with
  | ⟨0, _⟩ => show win0_6.index t (0 : Fin 2) * 2048 + 1 * p.val = 2048 * t.val + p.val; rw [e0]; omega
  | ⟨1, _⟩ => show win0_6.index t (1 : Fin 2) * 1 + 1 * u.val = u.val; rw [e1]; omega

/-- What point `t` writes back is block `t` of the specification of the five arguments. -/
theorem flushed_eq (c : Dev nD) (t : Fin cfg0.N) :
    (dats m 0 c).flushed 6 t = ((cfg0.win 6).blk t).view.read (Elt Ideal)
      (Cert.Rbf.out (argX m c) (argC m c) (argS m c) (argW m c) (argB m c)) := by
  rw [Value.flushed6]
  unfold out0_6
  rw [View.canon_unit_zero hz]
  simp only [View.ld_unit_zero (S := S2048x64) hz, View.ld_unit_zero (S := S64x512) hz,
    View.ld_unit_zero (S := S1x512) hz, View.ld_unit_zero (S := S1x1) hz]
  refine funext fun (y : S2048x1.Idx) => ?_
  obtain ⟨p, u, rfl⟩ : ∃ (p : Fin 2048) (u : Fin 1), y = ix2 p u := ⟨y 0, y 1, eq_ix2 y⟩
  show k0_pay1 (F := Ideal) (iblk m c 0 t) (iblk m c 1 t) (iblk m c 2 t) (iblk m c 3 t) (iblk m c 4 t) (iblk m c 5 t) (ix2 p u)
      = Cert.Rbf.out (argX m c) (argC m c) (argS m c) (argW m c) (argB m c) (((cfg0.win 6).blk t).view.emb (ix2 p u))
  rw [out_emb t p u]
  refine (Cert.Rbf.Body.payload_at (iblk m c 0 t) (iblk m c 1 t) (iblk m c 2 t) (iblk m c 3 t) (iblk m c 4 t)
    (iblk m c 5 t) p u).trans ?_
  simp only [x_blk, ct_blk, c2_blk, s2_blk, w_blk, b_blk]
  rfl

/-! ## The blocks cover the result -/

/-- An index of the result lies in point `t`'s output block iff each coordinate lies in the block's range. -/
theorem mem_blk (t : Fin cfg0.N) (i : S131072x1.Idx) :
    i ∈ ((cfg0.win 6).blk t).view.set ↔ ∀ a : Fin 2, win0_6.index t a * S2048x1.size a ≤ (i a).val
      ∧ (i a).val < win0_6.index t a * S2048x1.size a + S2048x1.size a := by
  show i ∈ ((View.whole main_v8).slice (win0_6.rect t)).set ↔ _
  rw [View.set_slice_whole, Rect.mem_set_unit]
  exact Iff.rfl

/-- Batch row `r` lies in the output block of point `r / 2048`, and every point writes its block back. -/
theorem cover (i : S131072x1.Idx) :
    ∃ t : Fin cfg0.N, (cfg0.win 6).flush t = true ∧ i ∈ ((cfg0.win 6).blk t).view.set := by
  have hi0 : (i 0).val < 131072 := (i 0).isLt
  have hi1 : (i 1).val < 1 := (i 1).isLt
  have hN : cfg0.N = 64 := N_0
  have hq : (i 0).val / 2048 < cfg0.N := by rw [hN]; omega
  obtain ⟨-, -, -, -, -, -, -, -, -, -, -, -, e0, e1⟩ := idx_facts ⟨(i 0).val / 2048, hq⟩
  refine ⟨⟨(i 0).val / 2048, hq⟩, flush0_6 _, ?_⟩
  rw [mem_blk]
  intro a
  match a with
  | ⟨0, _⟩ =>
    show win0_6.index ⟨(i 0).val / 2048, hq⟩ (0 : Fin 2) * 2048 ≤ (i 0).val
      ∧ (i 0).val < win0_6.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_6.index ⟨(i 0).val / 2048, hq⟩ (1 : Fin 2) * 1 ≤ (i 1).val
      ∧ (i 1).val < win0_6.index ⟨(i 0).val / 2048, hq⟩ (1 : Fin 2) * 1 + 1
    rw [e1]; omega

/-! ## The result array and the run -/

/-- After the run the result array is the specification of the five arguments. -/
theorem final (c : Dev nD) :
    (dats m 0 c).arrAt 6 cfg0.N = Cert.Rbf.out (argX m c) (argC m c) (argS m c) (argW m c) (argB m c) :=
  (dats m 0 c).arrAt_eq_of_cover 6 (Cert.Rbf.out (argX m c) (argC m c) (argS m c) (argW m c) (argB m c))
    (fun t _ => flushed_eq m c t) cover

/-- Every weakly fair execution of the kernel's program ends with the result array at the specification of the five
    arguments and the arguments as they were. -/
theorem run : θ_run defs (onTc (τ := τ) (main (F := Ideal))) ⟨m, fun _ => 0, ρ⟩ fun r => ∀ c : Dev nD,
      r.2.mem ((c : Thread nD τ).loc main_v8) = Cert.Rbf.out (argX m c) (argC m c) (argS m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Rbf.Blocks

end
-- ==== Proof.RefIsSpec.lean ====
/-
  The reference program's result is the specification.

  The reference computes ‖x_p‖² and ‖c_j‖² by host sums from a zero initial value, the cross terms by one matrix
  product against the transposed centres, clamps, takes the square root, scales by σ_j, squares, negates,
  exponentiates, and combines with the weights by a second matrix product against the transposed weight row, then
  adds the bias. Read index by index through the generated stage lemmas, its entry at row `p` is the specification's
  once the zero initial values are dropped and the scaled root squared is rewritten as the clamped squared distance
  times σ_j² (`Cert.Rbf.scaled_sq`).
-/
import proofs.«102594_j18116172055027_1_alg».proof.Proof.Gen.ReferenceIdeal.Read
import proofs.«102594_j18116172055027_1_alg».proof.Proof.Spec
import Idealize.ShloMosaic.Lib.ValueIdx
import Idealize.ShloMosaic.PureOps.Ideal.Laws

noncomputable section

namespace Cert.Rbf.Ref

open Idealize.ShloMosaic Idealize.ShloMosaic.ValueIdx Cert.ReferenceIdeal Cert.ReferenceIdeal.Read

/-! ## The stages' index maps at coordinates -/

theorem i24l (p : Fin 131072) (u : Fin 1) (k : Fin 512) : lidx_main_v24 (ix2 p u) k = ix2 p k :=
  funext fun a => Fin.ext (by match a with | ⟨0, _⟩ => rfl | ⟨1, _⟩ => rfl)
theorem i24r (p : Fin 131072) (u : Fin 1) (k : Fin 512) : ridx_main_v24 (ix2 p u) k = ix2 k u :=
  funext fun a => Fin.ext (by match a with | ⟨0, _⟩ => rfl | ⟨1, _⟩ => rfl)
theorem i23 (k : Fin 512) (u : Fin 1) : idx_main_v23 (ix2 k u) = ix2 u k :=
  funext fun a => Fin.ext (by match a with | ⟨0, _⟩ => rfl | ⟨1, _⟩ => rfl)
theorem i26 (p : Fin 131072) (u : Fin 1) : idx_main_v26 (ix2 p u) = ix2 (0 : Fin 1) (0 : Fin 1) :=
  funext fun a => Fin.ext (by match a with | ⟨0, _⟩ => rfl | ⟨1, _⟩ => rfl)
theorem i25 (u u' : Fin 1) : idx_main_v25 (ix2 u u') = ix1 (0 : Fin 1) :=
  funext fun a => Fin.ext (by match a with | ⟨0, _⟩ => rfl)
theorem i18 (p : Fin 131072) (k : Fin 512) : idx_main_v18 (ix2 p k) = ix2 (0 : Fin 1) k :=
  funext fun a => Fin.ext (by match a with | ⟨0, _⟩ => rfl | ⟨1, _⟩ => rfl)
theorem i17 (u : Fin 1) (k : Fin 512) : idx_main_v17 (ix2 u k) = ix1 k :=
  funext fun a => Fin.ext (by match a with | ⟨0, _⟩ => rfl)
theorem i6 (p : Fin 131072) (k : Fin 512) : idx_main_v6 (ix2 p k) = ix2 p (0 : Fin 1) :=
  funext fun a => Fin.ext (by match a with | ⟨0, _⟩ => rfl | ⟨1, _⟩ => rfl)
theorem i2 (p : Fin 131072) (u : Fin 1) : idx_main_v2 (ix2 p u) = ix1 p :=
  funext fun a => Fin.ext (by match a with | ⟨0, _⟩ => rfl)
theorem i1 (p : Fin 131072) (k : Fin 64) : idx_main_v1 (ix1 p) k = ix2 p k :=
  funext fun a => Fin.ext (by match a with | ⟨0, _⟩ => rfl | ⟨1, _⟩ => rfl)
theorem i7 (p : Fin 131072) (k : Fin 512) : idx_main_v7 (ix2 p k) = ix2 (0 : Fin 1) k :=
  funext fun a => Fin.ext (by match a with | ⟨0, _⟩ => rfl | ⟨1, _⟩ => rfl)
theorem i5 (u : Fin 1) (k : Fin 512) : idx_main_v5 (ix2 u k) = ix1 k :=
  funext fun a => Fin.ext (by match a with | ⟨0, _⟩ => rfl)
theorem i4 (j : Fin 512) (k : Fin 64) : idx_main_v4 (ix1 j) k = ix2 j k :=
  funext fun a => Fin.ext (by match a with | ⟨0, _⟩ => rfl | ⟨1, _⟩ => rfl)
theorem i10l (p : Fin 131072) (j : Fin 512) (k : Fin 64) : lidx_main_v10 (ix2 p j) k = ix2 p k :=
  funext fun a => Fin.ext (by match a with | ⟨0, _⟩ => rfl | ⟨1, _⟩ => rfl)
theorem i10r (p : Fin 131072) (j : Fin 512) (k : Fin 64) : ridx_main_v10 (ix2 p j) k = ix2 k j :=
  funext fun a => Fin.ext (by match a with | ⟨0, _⟩ => rfl | ⟨1, _⟩ => rfl)
theorem i9 (k : Fin 64) (j : Fin 512) : idx_main_v9 (ix2 k j) = ix2 j k :=
  funext fun a => Fin.ext (by match a with | ⟨0, _⟩ => rfl | ⟨1, _⟩ => rfl)

/-! ## The result -/

/-- The reference's result array is the specification of its five arguments. -/
theorem result_eq (x : FVec Ideal S131072x64 .f32) (c : FVec Ideal S512x64 .f32) (σ : FVec Ideal S512 .f32)
    (W : FVec Ideal S1x512 .f32) (b : FVec Ideal S1 .f32) :
    val_main_v27 (F := Ideal) x c σ W b = Cert.Rbf.out x c σ W b := by
  funext i
  obtain ⟨p, u, rfl⟩ : ∃ (p : Fin 131072) (u : Fin 1), i = ix2 p u := ⟨i 0, i 1, eq_ix2 i⟩
  obtain rfl : u = 0 := Subsingleton.elim _ _
  rw [val_main_v27_apply, val_main_v24_apply, val_main_v26_apply, val_main_v25_apply]
  simp only [i24l, i24r, i23, i26, i25, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply,
    val_main_cst_0_apply, val_main_cst_1_apply, val_main_cst_2_apply, i18, i17, i6, i2, i1, i7, i5, i4, i10l, i10r, i9,
    Ideal.addf_def, Ideal.subf_def, Ideal.mulf_def, Ideal.maximumf_def, Ideal.hostUnary_sqrt_def,
    Ideal.hostUnary_exp_def, Ideal.hostNegf_def, Ideal.negf_def, Ideal.ofBits_def, Ideal.ofBits_zero_f32, zero_add]
  refine congrArg (· + _) (Finset.sum_congr rfl fun k _ => ?_)
  rw [Cert.Rbf.scaled_sq (le_max_right _ _)]
  rfl

end Cert.Rbf.Ref

end
-- ==== Proof.lean ====
/-
  A radial-basis network on TPU against its jnp reference: equal results on the extended reals.

  Both programs compute, for each of 131072 batch rows x_p, 512 centres c_j with widths σ_j, a weight row W and a
  bias b,
      out_p = Σ_j exp(−(max(‖x_p‖² + ‖c_j‖² − 2⟨x_p, c_j⟩, 0) · σ_j²)) · W_j + b            (`Cert.Rbf.out`).
  The kernel streams the batch in 64 blocks of 2048 rows with the transposed centres, the centre norms, the squared
  widths, the weights and the bias resident, and scales the clamped squared distance by σ_j² directly; the reference
  takes the distance √(…), scales it by σ_j and squares. On the extended reals these agree with no condition on the
  inputs: the root of a non-negative number squared is that number, also at +∞ (`Cert.Rbf.scaled_sq`); sums in any
  order and grouping agree; a change of float format is no change; the kernel's negation by subtracting from zero
  is negation; and the zero the kernel's and the host's sums start from is dropped.

  `Spec` states the function and the law; `Body` reads the kernel body's stored value at a row; `Entry` reads the
  arrays the host prepares for the region; `Blocks` puts the 64 written-back blocks together into the result array;
  `RefIsSpec` reads the reference's operations one at a time down to the same function. Here the two runs are set
  side by side. The programs' frames are those of the generated frame modules (the reference's is its run with the
  result dropped), and the idealized kernel is the kernel's own text read on the extended reals, so nothing is
  owed for the idealization.
-/
import proofs.«102594_j18116172055027_1_alg».proof.Defs
import proofs.«102594_j18116172055027_1_alg».proof.Proof.Gen.Kernel
import proofs.«102594_j18116172055027_1_alg».proof.Proof.Gen.Kernel.Skeleton
import proofs.«102594_j18116172055027_1_alg».proof.Proof.Gen.Kernel.Launch
import proofs.«102594_j18116172055027_1_alg».proof.Proof.Gen.Kernel.Points
import proofs.«102594_j18116172055027_1_alg».proof.Proof.Gen.Kernel.Frame
import proofs.«102594_j18116172055027_1_alg».proof.Proof.Gen.KernelIdeal
import proofs.«102594_j18116172055027_1_alg».proof.Proof.Gen.KernelIdeal.Skeleton
import proofs.«102594_j18116172055027_1_alg».proof.Proof.Gen.KernelIdeal.Launch
import proofs.«102594_j18116172055027_1_alg».proof.Proof.Gen.KernelIdeal.Points
import proofs.«102594_j18116172055027_1_alg».proof.Proof.Gen.KernelIdeal.Frame
import proofs.«102594_j18116172055027_1_alg».proof.Proof.Gen.ReferenceIdeal
import proofs.«102594_j18116172055027_1_alg».proof.Proof.Gen.Pre_finite_inputs
import proofs.«102594_j18116172055027_1_alg».proof.Proof.Gen.KernelIdeal.Value
import proofs.«102594_j18116172055027_1_alg».proof.Proof.Gen.ReferenceIdeal.Run
import proofs.«102594_j18116172055027_1_alg».proof.Proof.Gen.ReferenceIdeal.Read
import proofs.«102594_j18116172055027_1_alg».proof.Proof.Blocks
import proofs.«102594_j18116172055027_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the five arguments, the kernel's result array ends at `Cert.Rbf.out` of them (the
    blocks put together), and the reference's result ends at the same function of the same arrays. -/
theorem algebraic : Cert.algebraic_KernelIdeal_ReferenceIdeal := by
  intro m ρ m' ρ' _ hagree
  refine ⟨fun c => Cert.Rbf.out (Cert.Rbf.Entry.argX m c) (Cert.Rbf.Entry.argC m c) (Cert.Rbf.Entry.argS m c)
    (Cert.Rbf.Entry.argW m c) (Cert.Rbf.Entry.argB m c), Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Rbf.Ref.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
